-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024 : Shape := ⟨2, ![8, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x4096x1024 .f32) (main_arg1 : FVec F S8x1024 .f32) (main_arg2 : FVec F S1024x1024 .f32) (main_arg3 : FVec F S1024x1024 .f32) (main_arg4 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x4096x1024 : Shape := ⟨3, ![8, 4096, 1024]⟩
abbrev S8x1024 : Shape := ⟨2, ![8, 1024]⟩
abbrev S1024x1024 : Shape := ⟨2, ![1024, 1024]⟩
abbrev S8x1x1024 : Shape := ⟨3, ![8, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x1024, .f32⟩
  | .hbm, ⟨6, _⟩ => ⟨S8x1x1024, .f32⟩
  | .hbm, ⟨7, _⟩ => ⟨S1024x1024, .bf16⟩
  | .hbm, ⟨8, _⟩ => ⟨S1024x1024, .bf16⟩
  | .hbm, ⟨9, _⟩ => ⟨S8x4096x1024, .f32⟩
  | .hbm, ⟨10, _⟩ => ⟨S8x1x1024, .f32⟩
  | .hbm, ⟨11, _⟩ => ⟨S8x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8x1024_S8x1x1024 : S8x1024.ShapeCasts S8x1x1024
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1x1x1024_S1x1024 : S1x1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  reduces_S512x1024_S1024 : S512x1024.Reduces [0] S1024
  shapeCasts_S1024_S1x1x1024 : S1024.ShapeCasts S1x1x1024
  shapeCasts_S1x1x1024_S1x1x1024 : S1x1x1024.ShapeCasts S1x1x1024
  shapeCasts_S8x1x1024_S8x1024 : S8x1x1024.ShapeCasts S8x1024
  dot_S8x1024_S1024x1024_S8x1024_1_0_0_1_n_n_wf : DotDims.WF S8x1024 S1024x1024 S8x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S8x1x1024.size a
  hwx0_1 : ∀ i : grid0.Coords, EltTy.bits .f32 = 32 ∨ (Rect.block (s := S8x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x4096x1024.size a
  hwx0_4 : ∀ i : grid0.Coords, EltTy.bits .f32 = 32 ∨ (Rect.block (s := S8x4096x1024) S1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x1024.size a
  hwx0_5 : ∀ i : grid0.Coords, EltTy.bits .f32 = 32 ∨ (Rect.block (s := S8x1x1024) S1x1x1024.size (cc0_transform_5 i) (hinb0_5 i)).WholeWords (EltTy.packing .f32)

variable [Facts₀]

def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x1024 : Shape := ⟨2, ![8, 1024]⟩
abbrev S1024x1024 : Shape := ⟨2, ![1024, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x4096x1024, .f32⟩
  | .hbm, ⟨6, _⟩ => ⟨S8x1024, .f32⟩
  | .hbm, ⟨7, _⟩ => ⟨S8x1x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S_, .f32⟩
  | .hbm, ⟨15, _⟩ => ⟨S8x4096, .f32⟩
  | .hbm, ⟨16, _⟩ => ⟨S8x4096, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  reducesTo_S8x4096x1024_S8x4096_d2 : S8x4096x1024.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  reducesTo_S8x4096x1024_S8x1024_d1 : S8x4096x1024.ReducesTo [1] S8x1024
  dot_S8x4096x1024_S1024x1024_S8x4096x1024_2_0_01_1_n_n_wf : DotDims.WF S8x4096x1024 S1024x1024 S8x4096x1024 [2] [0] [0, 1] [1] [] []
  dot_S8x1024_S1024x1024_S8x1024_1_0_0_1_n_n_wf : DotDims.WF S8x1024 S1024x1024 S8x1024 [1] [0] [0] [1] [] []

variable [Facts₀]

def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf
def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf

class Facts : Prop extends Facts₀ where

variable [Facts]
-- ==== Proof.Spec.lean ====
/-
  The common function of the two programs, over plain arrays of extended reals.

  Additive attention: a row of queries `x` (1024 entries) is projected by `W1`, the batch's projected key
  `k · W2` is added, `tanh` applied, the result projected by `V` to a row of 1024 scores; the row's softmax
  (scores shifted by the row maximum, exponentiated, divided by their sum) gives the row of weights, and the
  batch's value is the sum over the 4096 rows of weight times query, column by column.
  Everything is stated on ROWS (functions of `Fin 1024`), so that a block of rows and the whole array are
  read by the same functions.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The arrays' types: queries [8, 4096, 1024], keys [8, 1024], the three weight matrices [1024, 1024]. -/
abbrev Q3 : Type := (⟨3, ![8, 4096, 1024]⟩ : Shape).Idx → EReal
abbrev K2 : Type := (⟨2, ![8, 1024]⟩ : Shape).Idx → EReal
abbrev M2 : Type := (⟨2, ![1024, 1024]⟩ : Shape).Idx → EReal

/-- The word both programs start a maximum from (the f32 pattern of −∞), read at the extended reals. -/
abbrev negInf : EReal := Ideal.ofBits .f32 0xFF800000#32
/-- The word both programs start a sum from (the f32 pattern of +0.0), read at the extended reals. -/
abbrev zero : EReal := Ideal.ofBits .f32 0x00000000#32

/-- A row's maximum as both programs take it: the fold of `max` from −∞ over the row, then once more against −∞. -/
def rowMax (f : Fin 1024 → EReal) : EReal := max negInf (Finset.univ.fold max negInf f)

/-- A row's shifted exponentials. -/
def rowExp (f : Fin 1024 → EReal) (v : Fin 1024) : EReal := Ideal.exp (f v - rowMax f)

/-- A row's softmax: each shifted exponential divided by their sum. -/
def softmaxRow (f : Fin 1024 → EReal) (v : Fin 1024) : EReal := Ideal.div (rowExp f v) (∑ u : Fin 1024, rowExp f u)

/-- The batch's projected key: `(k · W2)[b, h]`. -/
def keyProj (k : K2) (W2 : M2) (b : Fin 8) (h : Fin 1024) : EReal := ∑ d : Fin 1024, k (ix2 b d) * W2 (ix2 d h)

/-- One row's scores from the row of queries `x` and the projected key row `kp`:
    `∑ h, tanh ((x · W1)[h] + kp[h]) · V[h, v]`. -/
def scoreRow (W1 V : M2) (x kp : Fin 1024 → EReal) (v : Fin 1024) : EReal :=
  ∑ h : Fin 1024, Ideal.tanh ((∑ d : Fin 1024, x d * W1 (ix2 d h)) + kp h) * V (ix2 h v)

/-- One row's weights from its queries and the projected key row. -/
def weightRow (W1 V : M2) (x kp : Fin 1024 → EReal) (v : Fin 1024) : EReal := softmaxRow (scoreRow W1 V x kp) v

/-- The attention weights `[b, s, v]`. -/
def weights (q : Q3) (k : K2) (W1 W2 V : M2) (b : Fin 8) (s : Fin 4096) (v : Fin 1024) : EReal :=
  weightRow W1 V (fun d => q (ix3 b s d)) (keyProj k W2 b) v

/-- The attention values `[b, v]`: the sum over the sequence of weight times query. -/
def values (q : Q3) (k : K2) (W1 W2 V : M2) (b : Fin 8) (v : Fin 1024) : EReal :=
  ∑ s : Fin 4096, weights q k W1 W2 V b s v * q (ix3 b s v)

/-- The two results as arrays. -/
def weightsArr (q : Q3) (k : K2) (W1 W2 V : M2) : Q3 := fun i => weights q k W1 W2 V (i 0) (i 1) (i 2)
def valuesArr (q : Q3) (k : K2) (W1 W2 V : M2) : K2 := fun i => values q k W1 W2 V (i 0) (i 1)

/-- Row `r` of tile `j` of the sequence axis: row `512 j + r` (tiles of 512 rows; `j` a natural below 8). -/
def tileRow (j : ℕ) (hj : j < 8) (r : Fin 512) : Fin 4096 := ⟨512 * j + r.val, by have := r.isLt; omega⟩

/-- The batch a grid point works on: the grid is 8 batches by 8 tiles, a point's number is `8 · batch + tile`
    (stated on every natural; only points below 64 are used). -/
def batchOf (t : ℕ) : Fin 8 := ⟨t / 8 % 8, Nat.mod_lt _ (by decide)⟩

/-- Row `r` of the tile a grid point works on: row `512 · (t mod 8) + r` of the sequence axis. -/
def rowOf (t : ℕ) (r : Fin 512) : Fin 4096 :=
  ⟨512 * (t % 8) + r.val, by have := r.isLt; have := Nat.mod_lt t (show 0 < 8 by decide); omega⟩

theorem batchOf_val (t : ℕ) (ht : t < 64) : (batchOf t).val = t / 8 := by
  show t / 8 % 8 = t / 8
  omega

theorem batchOf_add (b j : ℕ) (hb : b < 8) (hj : j < 8) : batchOf (8 * b + j) = ⟨b, hb⟩ :=
  Fin.ext (by show (8 * b + j) / 8 % 8 = b; omega)

theorem rowOf_add (b j : ℕ) (hj : j < 8) (r : Fin 512) : rowOf (8 * b + j) r = tileRow j hj r :=
  Fin.ext (by show 512 * ((8 * b + j) % 8) + r.val = 512 * j + r.val; omega)

/-- The sum over the 4096 rows is the sum over the 8 tiles of the sums over each tile's 512 rows
    (a re-indexing: addition of extended reals is commutative and associative). The tile's summand is stated on
    every natural `j` (zero past the eighth tile), the shape in which a grid accumulator's fold delivers it. -/
theorem sum_rows_eq_sum_tiles {M : Type*} [AddCommMonoid M] (f : Fin 4096 → M) :
    ∑ s : Fin 4096, f s
      = ∑ j ∈ Finset.range 8, (if hj : j < 8 then ∑ r : Fin 512, f (tileRow j hj r) else 0) := by
  rw [Finset.sum_range fun j => (if hj : j < 8 then ∑ r : Fin 512, f (tileRow j hj r) else 0)]
  have e : ∀ j : Fin 8, (if hj : j.val < 8 then ∑ r : Fin 512, f (tileRow j.val hj r) else 0)
      = ∑ r : Fin 512, f (tileRow j.val j.isLt r) := fun j => dif_pos j.isLt
  rw [Finset.sum_congr rfl fun j _ => e j, ← Fintype.sum_prod_type']
  refine (Fintype.sum_equiv (finProdFinEquiv (m := 8) (n := 512)) _ _ fun p => ?_).symm
  refine congrArg f (Fin.ext ?_)
  show 512 * p.1.val + p.2.val = p.2.val + 512 * p.1.val
  omega

end Cert.Spec

end
-- ==== Proof.KFacts.lean ====
/-
  What the kernel's value proof assumes of the body's arithmetic and of the windows' blocks, as one record.

  The two results of the kernel are read off its run in two independent halves: what the body computes from the
  blocks it loads (its stores' payloads read at an index), and what those blocks are (each input window's block at a
  grid point, read off the arrays the region finds). This record states both halves as hypotheses, so that the
  reading of the run (the accumulation over the grid, the write-backs, the host reshape after the region) is
  proved once, independently of how either half is established.
-/
import proofs.«160043_j45414984188085_2_alg».proof.Proof.Gen.KernelIdeal.Frame
import proofs.«160043_j45414984188085_2_alg».proof.Proof.Spec

noncomputable section

namespace Cert.KernelIdeal.Out

open Idealize.ShloMosaic Idealize.ShloMosaic.TcCoe Idealize.ShloMosaic.ValueIdx Idealize.SL.Sem
open Cert.KernelIdeal Cert.KernelIdeal.Gen

/-- The body's payloads at an index, and the input windows' blocks at a grid point (point `t` works on batch
    `t / 8` and on rows `512 · (t mod 8) …` of the sequence axis). -/
structure Facts (m : (ℓ : Loc nD τ sig) → Buf (Elt Ideal) ℓ) : Prop where
  /-- the weights payload at row `r`, column `c` of the tile -/
  pay5 : ∀ (v3 : Vec Ideal S1x512x1024 .f32) (v6 : Vec Ideal S1024x1024 .bf16) (v9 : Vec Ideal S1x1x1024 .f32)
      (v15 : Vec Ideal S1024x1024 .bf16) (r : Fin 512) (c : Fin 1024),
      k0_pay5 (F := Ideal) v3 v6 v9 v15 (ix3 0 r c)
        = Cert.Spec.weightRow v6 v15 (fun d => v3 (ix3 0 r d)) (fun h => v9 (ix3 0 0 h)) c
  /-- the tile's contribution at column `c`: the sum over its rows of weight times query -/
  pay6 : ∀ (v3 : Vec Ideal S1x512x1024 .f32) (v6 : Vec Ideal S1024x1024 .bf16) (v9 : Vec Ideal S1x1x1024 .f32)
      (v15 : Vec Ideal S1024x1024 .bf16) (c : Fin 1024),
      k0_pay6 (F := Ideal) v3 v6 v9 v15 (ix3 0 0 c)
        = ∑ r : Fin 512, Cert.Spec.weightRow v6 v15 (fun d => v3 (ix3 0 r d)) (fun h => v9 (ix3 0 0 h)) c * v3 (ix3 0 r c)
  /-- the accumulation step -/
  pay1 : ∀ (v34 : FVec Ideal S1x1x1024 .f32) (v35 : Vec Ideal S1x1x1024 .f32) (i : S1x1x1024.Idx),
      k0_pay1 (F := Ideal) v34 v35 i = v35 i + v34 i
  /-- the reset block -/
  pay2 : ∀ i : S1x1x1024.Idx, k0_pay2 (F := Ideal) i = Cert.Spec.zero
  /-- the query block -/
  qblk : ∀ (c : Dev nD) (t : Fin cfg0.N) (r : Fin 512) (d : Fin 1024),
      (iblk m c 0 t : Vec Ideal S1x512x1024 .f32) (ix3 0 r d)
        = (m ((c : Thread nD τ).loc main_arg0) : Cert.Spec.Q3) (ix3 (Cert.Spec.batchOf t.val) (Cert.Spec.rowOf t.val r) d)
  /-- the projected-key block -/
  kblk : ∀ (c : Dev nD) (t : Fin cfg0.N) (h : Fin 1024),
      (iblk m c 1 t : Vec Ideal S1x1x1024 .f32) (ix3 0 0 h)
        = Cert.Spec.keyProj (m ((c : Thread nD τ).loc main_arg1)) (m ((c : Thread nD τ).loc main_arg3)) (Cert.Spec.batchOf t.val) h
  /-- the two weight blocks -/
  w1blk : ∀ (c : Dev nD) (t : Fin cfg0.N), (iblk m c 2 t : Cert.Spec.M2) = m ((c : Thread nD τ).loc main_arg2)
  vblk : ∀ (c : Dev nD) (t : Fin cfg0.N), (iblk m c 3 t : Cert.Spec.M2) = m ((c : Thread nD τ).loc main_arg4)

variable (m : (ℓ : Loc nD τ sig) → Buf (Elt Ideal) ℓ)

/-- The specification's weights of the launch arrays, as contents of the weights result. -/
abbrev Wts (c : Dev nD) : Buf (Elt Ideal) ((c : Thread nD τ).loc main_v4_0) :=
  Cert.Spec.weightsArr (m ((c : Thread nD τ).loc main_arg0)) (m ((c : Thread nD τ).loc main_arg1))
    (m ((c : Thread nD τ).loc main_arg2)) (m ((c : Thread nD τ).loc main_arg3)) (m ((c : Thread nD τ).loc main_arg4))

/-- The specification's values of the launch arrays, with the unit axis the kernel keeps, as contents of the
    accumulated result `[8, 1, 1024]`. -/
abbrev Vals3 (c : Dev nD) : Buf (Elt Ideal) ((c : Thread nD τ).loc main_v4_1) :=
  fun i => Cert.Spec.values (m ((c : Thread nD τ).loc main_arg0)) (m ((c : Thread nD τ).loc main_arg1))
    (m ((c : Thread nD τ).loc main_arg2)) (m ((c : Thread nD τ).loc main_arg3)) (m ((c : Thread nD τ).loc main_arg4)) (i 0) (i 2)

/-- The specification's values as contents of the values result `[8, 1024]`. -/
abbrev Vals (c : Dev nD) : Buf (Elt Ideal) ((c : Thread nD τ).loc main_v5) :=
  Cert.Spec.valuesArr (m ((c : Thread nD τ).loc main_arg0)) (m ((c : Thread nD τ).loc main_arg1))
    (m ((c : Thread nD τ).loc main_arg2)) (m ((c : Thread nD τ).loc main_arg3)) (m ((c : Thread nD τ).loc main_arg4))

/-- A tile's weights row from the blocks at point `t` is the specification's weights row of the point's batch and of
    the tile's row. -/
theorem weightRow_blk (hF : Facts m) (c : Dev nD) (t : Fin cfg0.N) (r : Fin 512) (v : Fin 1024) :
    Cert.Spec.weightRow (iblk m c 2 t : Cert.Spec.M2) (iblk m c 3 t : Cert.Spec.M2)
        (fun d => (iblk m c 0 t : Vec Ideal S1x512x1024 .f32) (ix3 0 r d))
        (fun h => (iblk m c 1 t : Vec Ideal S1x1x1024 .f32) (ix3 0 0 h)) v
      = Cert.Spec.weights (m ((c : Thread nD τ).loc main_arg0)) (m ((c : Thread nD τ).loc main_arg1))
          (m ((c : Thread nD τ).loc main_arg2)) (m ((c : Thread nD τ).loc main_arg3)) (m ((c : Thread nD τ).loc main_arg4))
          (Cert.Spec.batchOf t.val) (Cert.Spec.rowOf t.val r) v := by
  rw [hF.w1blk c t, hF.vblk c t, funext fun d => hF.qblk c t r d, funext fun h => hF.kblk c t h]
  rfl

end Cert.KernelIdeal.Out

end
-- ==== Proof.Pieces.lean ====
/-
  What one run of the kernel body leaves in its two output blocks, as functions of the input blocks.

  The body has two control cases. At the first tile of a batch (case A) it stores the zero block into the
  accumulator, computes the tile's weights and stores them, and adds the tile's contribution to the accumulator it
  has just zeroed. At every other tile (case B) it does the same without the reset, adding to what the tile before
  left. In both cases each output block is covered by whole-block stores, so what it holds is the last store's value:
  the weights block is the weights payload of the four input blocks; the accumulator block is the sum payload of
  (the zero block, or the previous contents) and the tile's contribution.
-/
import proofs.«160043_j45414984188085_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Case B, the weights block: the one covering store's payload of the four input blocks. -/
theorem out_B_4 (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S1x1x1024 .f32) (harg7 : arg7.IsWhole) (hc0 : ¬cond0_0 i)
    (x0 : Vec F S1x512x1024 .f32) (x1 : Vec F S1x1x1024 .f32) (x2 : Vec F S1024x1024 .bf16) (x3 : Vec F S1024x1024 .bf16) (xo5 : Vec F S1x1x1024 .f32) :
    out0_B_4 c i arg2 harg2 arg3 harg3 arg4 harg4 arg5 harg5 arg6 harg6 arg7 harg7 hc0 x0 x1 x2 x3 xo5 = k0_pay5 x0 x2 x1 x3 := by
  unfold out0_B_4
  rw [View.read_writes_eq_canon _ _ _ (cover0_B_4 c i arg2 harg2 arg3 harg3 arg4 harg4 arg5 harg5 arg6 harg6 arg7 harg7 hc0 x0 x1 x2 x3 xo5)]
  unfold kernelRun0_B
  dsimp only
  rw [View.canon_unit_zero hz3]
  simp only [View.readAt_eq_ld, harg2.read_unread, harg3.read_unread, harg4.read_unread, harg5.read_unread, harg7.read_unread,
    View.ld_unit_zero (S := S1x512x1024) hz3, View.ld_unit_zero (S := S1x1x1024) hz3, View.ld_unit_zero (S := S1024x1024) hz2]

/-- Case A, the weights block: the same payload. -/
theorem out_A_4 (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S1x1x1024 .f32) (harg7 : arg7.IsWhole) (hc0 : cond0_0 i)
    (x0 : Vec F S1x512x1024 .f32) (x1 : Vec F S1x1x1024 .f32) (x2 : Vec F S1024x1024 .bf16) (x3 : Vec F S1024x1024 .bf16) :
    out0_A_4 c i arg2 harg2 arg3 harg3 arg4 harg4 arg5 harg5 arg6 harg6 arg7 harg7 hc0 x0 x1 x2 x3 = k0_pay5 x0 x2 x1 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3]
  simp only [View.readAt_eq_ld, harg2.read_unread, harg3.read_unread, harg4.read_unread, harg5.read_unread, harg7.read_unread,
    View.ld_unit_zero (S := S1x512x1024) hz3, View.ld_unit_zero (S := S1x1x1024) hz3, View.ld_unit_zero (S := S1024x1024) hz2]

/-- Case B, the accumulator block: the previous contents plus the tile's contribution. -/
theorem out_B_5 (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S1x1x1024 .f32) (harg7 : arg7.IsWhole) (hc0 : ¬cond0_0 i)
    (x0 : Vec F S1x512x1024 .f32) (x1 : Vec F S1x1x1024 .f32) (x2 : Vec F S1024x1024 .bf16) (x3 : Vec F S1024x1024 .bf16) (xo5 : Vec F S1x1x1024 .f32) :
    out0_B_5 c i arg2 harg2 arg3 harg3 arg4 harg4 arg5 harg5 arg6 harg6 arg7 harg7 hc0 x0 x1 x2 x3 xo5 = k0_pay1 (k0_pay6 x0 x2 x1 x3) xo5 := by
  unfold out0_B_5
  rw [View.read_writes_eq_canon _ _ _ (cover0_B_5 c i arg2 harg2 arg3 harg3 arg4 harg4 arg5 harg5 arg6 harg6 arg7 harg7 hc0 x0 x1 x2 x3 xo5)]
  unfold kernelRun0_B
  dsimp only
  sl_unfold_words
  rw [View.canon_unit_zero hz3]
  simp only [View.readAt_eq_ld, harg2.read_unread, harg3.read_unread, harg4.read_unread, harg5.read_unread, harg7.read_unread,
    View.ld_unit_zero (S := S1x512x1024) hz3, View.ld_unit_zero (S := S1x1x1024) hz3, View.ld_unit_zero (S := S1024x1024) hz2]

/-- Case A, the accumulator block: the zero block plus the tile's contribution. -/
theorem out_A_5 (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S1x1x1024 .f32) (harg7 : arg7.IsWhole) (hc0 : cond0_0 i)
    (x0 : Vec F S1x512x1024 .f32) (x1 : Vec F S1x1x1024 .f32) (x2 : Vec F S1024x1024 .bf16) (x3 : Vec F S1024x1024 .bf16) :
    out0_A_5 c i arg2 harg2 arg3 harg3 arg4 harg4 arg5 harg5 arg6 harg6 arg7 harg7 hc0 x0 x1 x2 x3 = k0_pay1 (k0_pay6 x0 x2 x1 x3) (k0_pay2 (F := F)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x1x1024) hz3, View.readCov_unit_zero (S := S1x1x1024) _ hz3]
  simp only [View.readAt_eq_ld, harg2.read_unread, harg3.read_unread, harg4.read_unread, harg5.read_unread, harg7.read_unread,
    View.ld_unit_zero (S := S1x512x1024) hz3, View.ld_unit_zero (S := S1x1x1024) hz3, View.ld_unit_zero (S := S1024x1024) hz2]

end Cert.KernelIdeal.Pieces

end
-- ==== Proof.Out4.lean ====
/-
  The weights result: what the kernel's run leaves in it.

  Every grid point writes its weights block back. The block a point leaves is, in either control case, the weights
  payload of the point's four input blocks; read at row `r`, column `v` of the tile it is the specification's weight
  of the point's batch at sequence row `512 · tile + r`, which is where the block's entry sits in the array. The 64
  blocks tile the array (batch `b`, rows `512 j …` belong to point `8 b + j`), so the array ends holding the
  specification's weights.
-/
import proofs.«160043_j45414984188085_2_alg».proof.Proof.KFacts
import proofs.«160043_j45414984188085_2_alg».proof.Proof.Pieces
import Idealize.ShloMosaic.Lib.Pipeline.Value

noncomputable section

namespace Cert.KernelIdeal.Out

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The weights window's block index at point `t`: (batch, tile, 0) — decided over the grid. -/
theorem idx4 : ∀ t : Fin cfg0.N, win0_4.index t (0 : Fin 3) = t.val / 8 ∧ win0_4.index t (1 : Fin 3) = t.val % 8
    ∧ win0_4.index t (2 : Fin 3) = 0 :=
  (by decide +kernel : ∀ t : Fin grid0.N, _)

/-- What the body leaves in the weights block at any point: the weights payload of the point's input blocks. -/
theorem after4 (c : Dev nD) (t : Fin cfg0.N) :
    (dats m 0 c).after 4 t = k0_pay5 (F := Ideal) (iblk m c 0 t) (iblk m c 2 t) (iblk m c 1 t) (iblk m c 3 t) := by
  rw [after0_4]
  by_cases h0 : t.val % 8 = 0
  · rw [outsAt0_A m c t h0]
    dsimp only
    exact Cert.KernelIdeal.Pieces.out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
      (iblk m c 0 t) (iblk m c 1 t) (iblk m c 2 t) (iblk m c 3 t)
  · rw [outsAt0_B m c t h0]
    dsimp only
    exact Cert.KernelIdeal.Pieces.out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h))
      (iblk m c 0 t) (iblk m c 1 t) (iblk m c 2 t) (iblk m c 3 t)
      (outsAt0 m c (t.val - 1) (Nat.lt_of_le_of_lt (Nat.sub_le _ _) t.isLt)).2

/-- The weights payload of blocks whose rows are rows of one array `G`, read at an entry of the block. -/
theorem pay5_entry (hp : ∀ (v3 : Vec Ideal S1x512x1024 .f32) (v6 : Vec Ideal S1024x1024 .bf16) (v9 : Vec Ideal S1x1x1024 .f32)
      (v15 : Vec Ideal S1024x1024 .bf16) (r : Fin 512) (c : Fin 1024),
      k0_pay5 (F := Ideal) v3 v6 v9 v15 (ix3 0 r c)
        = Cert.Spec.weightRow v6 v15 (fun d => v3 (ix3 0 r d)) (fun h => v9 (ix3 0 0 h)) c)
    (X0 : Vec Ideal S1x512x1024 .f32) (X2 : Vec Ideal S1024x1024 .bf16) (X1 : Vec Ideal S1x1x1024 .f32)
    (X3 : Vec Ideal S1024x1024 .bf16) (G : Cert.Spec.Q3) (b : Fin 8) (s : Fin 512 → Fin 4096)
    (h : ∀ r v, Cert.Spec.weightRow X2 X3 (fun d => X0 (ix3 0 r d)) (fun h => X1 (ix3 0 0 h)) v = G (ix3 b (s r) v))
    (j : S1x512x1024.Idx) (i : S8x4096x1024.Idx) (hi : i = ix3 b (s (j 1)) (j 2)) :
    k0_pay5 (F := Ideal) X0 X2 X1 X3 j = G i := by
  subst hi
  obtain ⟨a, r, v, rfl⟩ : ∃ (a : Fin 1) (r : Fin 512) (v : Fin 1024), j = ix3 a r v := ⟨j 0, j 1, j 2, eq_ix3 j⟩
  obtain rfl : a = 0 := Subsingleton.elim _ _
  exact (hp X0 X2 X1 X3 r v).trans (h r v)

/-- WHAT POINT `t` WRITES BACK is block `t` of the specification's weights. -/
theorem flushed4_eq (hF : Facts m) (c : Dev nD) (t : Fin cfg0.N) :
    (dats m 0 c).flushed 4 t = ((cfg0.win 4).blk t).view.read (Elt Ideal) (Wts m c) := by
  show (cfg0.win 4).cut (grid0.coords t) ((dats m 0 c).after 4 t) = _
  rw [after4]
  obtain ⟨e0, e1, e2⟩ := idx4 t
  have hN : t.val < 64 := lt_of_lt_of_eq t.isLt N_0
  funext j
  show k0_pay5 (F := Ideal) (iblk m c 0 t) (iblk m c 2 t) (iblk m c 1 t) (iblk m c 3 t) j
    = Wts m c (((cfg0.win 4).blk t).view.emb j)
  refine pay5_entry hF.pay5 (iblk m c 0 t) (iblk m c 2 t) (iblk m c 1 t) (iblk m c 3 t) (Wts m c)
    (Cert.Spec.batchOf t.val) (Cert.Spec.rowOf t.val) (fun r v => weightRow_blk m hF c t r v) j _ ?_
  funext a
  apply Fin.ext
  match a with
  | ⟨0, _⟩ =>
    show win0_4.index t (0 : Fin 3) * 1 + 1 * (j 0).val = t.val / 8 % 8
    have hj : (j 0).val < 1 := (j 0).isLt
    omega
  | ⟨1, _⟩ =>
    show win0_4.index t (1 : Fin 3) * 512 + 1 * (j 1).val = 512 * (t.val % 8) + (j 1).val
    omega
  | ⟨2, _⟩ =>
    show win0_4.index t (2 : Fin 3) * 1024 + 1 * (j 2).val = (j 2).val
    omega

/-- An index of the array is in point `t`'s block iff each coordinate is in the block's range on its axis. -/
theorem mem_blk4 (t : Fin cfg0.N) (i : S8x4096x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v4_0).slice (win0_4.rect t)).set ↔ _
  rw [View.set_slice_whole, Rect.mem_set_unit]
  exact Iff.rfl

/-- Every entry of the weights array is in the block of the point of its batch and of its row's tile. -/
theorem cover4 (i : S8x4096x1024.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 1024 := (i 2).isLt
  have hN : cfg0.N = 64 := N_0
  refine ⟨⟨8 * (i 0).val + (i 1).val / 512, by rw [hN]; omega⟩, flush0_4 _, ?_⟩
  rw [mem_blk4]
  obtain ⟨e0, e1, e2⟩ := idx4 ⟨8 * (i 0).val + (i 1).val / 512, by rw [hN]; omega⟩
  intro a
  match a with
  | ⟨0, _⟩ =>
    show win0_4.index _ (0 : Fin 3) * 1 ≤ (i 0).val ∧ (i 0).val < win0_4.index _ (0 : Fin 3) * 1 + 1
    rw [e0]; dsimp only; omega
  | ⟨1, _⟩ =>
    show win0_4.index _ (1 : Fin 3) * 512 ≤ (i 1).val ∧ (i 1).val < win0_4.index _ (1 : Fin 3) * 512 + 512
    rw [e1]; dsimp only; omega
  | ⟨2, _⟩ =>
    show win0_4.index _ (2 : Fin 3) * 1024 ≤ (i 2).val ∧ (i 2).val < win0_4.index _ (2 : Fin 3) * 1024 + 1024
    rw [e2]; omega

/-- THE WEIGHTS ARRAY after the run is the specification's weights of the launch arrays. -/
theorem final4 (hF : Facts m) (c : Dev nD) : (dats m 0 c).arrAt 4 cfg0.N = Wts m c :=
  (dats m 0 c).arrAt_eq_of_cover 4 (Wts m c) (fun t _ => flushed4_eq m hF c t) cover4

end Cert.KernelIdeal.Out

end
-- ==== Proof.Out5.lean ====
/-
  The values result: what the kernel's run leaves in the accumulated array `[8, 1, 1024]`.

  The accumulator block of batch `b` stays in its staging buffer over the batch's eight grid points `8 b … 8 b + 7`:
  the first point stores the zero block and adds its tile's contribution (the column sums over the tile's 512 rows of
  weight times query), each later point adds its own, and the last one writes the block back. So the block written
  back at point `8 b + 7` is the zero word plus the sum over the eight tiles of their contributions, column by
  column; the tiles' rows are the 4096 rows of the sequence axis, and addition of extended reals is commutative and
  associative, so this is the specification's sum over all rows (the zero word is the real 0).
-/
import proofs.«160043_j45414984188085_2_alg».proof.Proof.KFacts
import proofs.«160043_j45414984188085_2_alg».proof.Proof.Pieces
import Idealize.ShloMosaic.Lib.Pipeline.Value

noncomputable section

namespace Cert.KernelIdeal.Out

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (m : (ℓ : Loc nD τ sig) → Buf (Elt Ideal) ℓ)

/-- The accumulator window's block index at point `t`: (batch, 0, 0) — decided over the grid. -/
theorem idx5 : ∀ t : Fin cfg0.N, win0_5.index t (0 : Fin 3) = t.val / 8 ∧ win0_5.index t (1 : Fin 3) = 0
    ∧ win0_5.index t (2 : Fin 3) = 0 :=
  (by decide +kernel : ∀ t : Fin grid0.N, _)

/-- The contribution of the tile of point `n`: the sum payload of the point's input blocks. -/
def contrib (c : Dev nD) (n : ℕ) (h : n < cfg0.N) : Vec Ideal S1x1x1024 .f32 :=
  k0_pay6 (F := Ideal) (iblk m c 0 ⟨n, h⟩) (iblk m c 2 ⟨n, h⟩) (iblk m c 1 ⟨n, h⟩) (iblk m c 3 ⟨n, h⟩)

/-- What the accumulator's staging buffer holds after point `n`. -/
def accF (c : Dev nD) (n : ℕ) (h : n < cfg0.N) : Vec Ideal S1x1x1024 .f32 := (outsAt0 m c n h).2

/-- At the first tile of a batch: the zero block plus the tile's contribution. -/
theorem acc_reset (c : Dev nD) (n : ℕ) (h : n < cfg0.N) (h0 : n % 8 = 0) :
    accF m c n h = k0_pay1 (F := Ideal) (contrib m c n h) (k0_pay2 (F := Ideal)) := by
  unfold accF contrib
  refine (congrArg Prod.snd (outsAt0_A m c ⟨n, h⟩ h0)).trans ?_
  dsimp only
  exact Cert.KernelIdeal.Pieces.out_A_5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0)
    (iblk m c 0 ⟨n, h⟩) (iblk m c 1 ⟨n, h⟩) (iblk m c 2 ⟨n, h⟩) (iblk m c 3 ⟨n, h⟩)

/-- At every other tile: what the tile before left plus the tile's contribution. -/
theorem acc_step (c : Dev nD) (n : ℕ) (h : n + 1 < cfg0.N) (hB : ¬(n + 1) % 8 = 0) :
    accF m c (n + 1) h = k0_pay1 (F := Ideal) (contrib m c (n + 1) h) (accF m c n (Nat.lt_of_succ_lt h)) := by
  unfold accF contrib
  refine (congrArg Prod.snd (outsAt0_B m c ⟨n + 1, h⟩ hB)).trans ?_
  dsimp only
  exact Cert.KernelIdeal.Pieces.out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hc => hB ((hcond0_0 ⟨n + 1, h⟩).mp hc))
    (iblk m c 0 ⟨n + 1, h⟩) (iblk m c 1 ⟨n + 1, h⟩) (iblk m c 2 ⟨n + 1, h⟩) (iblk m c 3 ⟨n + 1, h⟩)
    (outsAt0 m c n (Nat.lt_of_succ_lt h)).2

/-- A tile's contribution as a function of every natural (zero past the grid), the form the fold's sum is stated in. -/
def addend (c : Dev nD) (n : ℕ) (i : S1x1x1024.Idx) : EReal := if h : n < cfg0.N then contrib m c n h i else 0

/-- THE FOLD: at the last tile of a batch the accumulator holds the zero word plus the sum of the batch's eight tiles'
    contributions. -/
theorem acc_last (hF : Facts m) (c : Dev nD) (t : ℕ) (ht : t < cfg0.N) (h7 : t % 8 = 7) (i : S1x1x1024.Idx) :
    accF m c t ht i = Cert.Spec.zero + ∑ s ∈ Finset.range 8, addend m c (8 * (t / 8) + s) i := by
  have hN : cfg0.N = 64 := N_0
  have h' : 8 * (t / 8) + t % 8 < cfg0.N := by rw [hN] at ht ⊢; omega
  rw [Pipeline.eq_accAt_of_mod (N := cfg0.N) (accF m c) 8
    (fun n h => k0_pay1 (F := Ideal) (contrib m c n h) (k0_pay2 (F := Ideal)))
    (fun n h acc => k0_pay1 (F := Ideal) (contrib m c n h) acc)
    (fun n h h0 => acc_reset m c n h h0) (fun n h hB => acc_step m c n h hB) (by decide) t ht h']
  rw [Pipeline.accAt_add_apply (N := cfg0.N)
    (fun n h => k0_pay1 (F := Ideal) (contrib m c n h) (k0_pay2 (F := Ideal)))
    (fun n h acc => k0_pay1 (F := Ideal) (contrib m c n h) acc)
    (fun _ => Cert.Spec.zero) (addend m c) (8 * (t / 8)) 7
    (fun h i => by
      show k0_pay1 (F := Ideal) (contrib m c (8 * (t / 8)) h) (k0_pay2 (F := Ideal)) i = _
      rw [hF.pay1, hF.pay2]
      unfold addend
      rw [dif_pos h])
    (fun n h acc i _ _ => by
      show k0_pay1 (F := Ideal) (contrib m c n h) acc i = _
      rw [hF.pay1]
      unfold addend
      rw [dif_pos h])
    (t % 8) (by omega) h' i, h7]

/-- A tile's contribution at column `v` is the specification's sum over the tile's rows. -/
theorem addend_eq (hF : Facts m) (c : Dev nD) (b s : ℕ) (hb : b < 8) (hs : s < 8) (v : Fin 1024) :
    addend m c (8 * b + s) (ix3 0 0 v)
      = ∑ r : Fin 512, Cert.Spec.weights (m ((c : Thread nD τ).loc main_arg0)) (m ((c : Thread nD τ).loc main_arg1))
          (m ((c : Thread nD τ).loc main_arg2)) (m ((c : Thread nD τ).loc main_arg3)) (m ((c : Thread nD τ).loc main_arg4))
          ⟨b, hb⟩ (Cert.Spec.tileRow s hs r) v
          * (m ((c : Thread nD τ).loc main_arg0) : Cert.Spec.Q3) (ix3 ⟨b, hb⟩ (Cert.Spec.tileRow s hs r) v) := by
  have hN : cfg0.N = 64 := N_0
  have h : 8 * b + s < cfg0.N := by rw [hN]; omega
  unfold addend
  rw [dif_pos h]
  unfold contrib
  rw [hF.pay6]
  refine Finset.sum_congr rfl fun r _ => ?_
  rw [weightRow_blk m hF c ⟨8 * b + s, h⟩ r v, hF.qblk c ⟨8 * b + s, h⟩ r v]
  dsimp only
  rw [Cert.Spec.batchOf_add b s hb hs, Cert.Spec.rowOf_add b s hs r]

/-- So at the last tile of batch `b` the accumulator holds, at column `v`, the specification's value. -/
theorem acc_last_eq (hF : Facts m) (c : Dev nD) (t : ℕ) (ht : t < cfg0.N) (h7 : t % 8 = 7) (v : Fin 1024) :
    accF m c t ht (ix3 0 0 v)
      = Cert.Spec.values (m ((c : Thread nD τ).loc main_arg0)) (m ((c : Thread nD τ).loc main_arg1))
          (m ((c : Thread nD τ).loc main_arg2)) (m ((c : Thread nD τ).loc main_arg3)) (m ((c : Thread nD τ).loc main_arg4))
          (Cert.Spec.batchOf t) v := by
  have hN : cfg0.N = 64 := N_0
  have hb : t / 8 < 8 := by rw [hN] at ht; omega
  rw [acc_last m hF c t ht h7]
  show Ideal.ofBits .f32 0x00000000#32 + _ = _
  rw [Ideal.ofBits_zero_f32, zero_add]
  unfold Cert.Spec.values
  rw [Cert.Spec.sum_rows_eq_sum_tiles]
  refine Finset.sum_congr rfl fun s hs => ?_
  have hs8 : s < 8 := Finset.mem_range.mp hs
  rw [dif_pos hs8, addend_eq m hF c (t / 8) s hb hs8 v]
  have eb : Cert.Spec.batchOf t = ⟨t / 8, hb⟩ := Fin.ext (Cert.Spec.batchOf_val t (by rw [hN] at ht; exact ht))
  rw [eb]

/-- WHAT A FLUSHING POINT WRITES BACK is its block of the specification's values (with the unit axis). -/
theorem flushed5_eq (hF : Facts m) (c : Dev nD) (t : Fin cfg0.N) (hf : (cfg0.win 5).flush t = true) :
    (dats m 0 c).flushed 5 t = ((cfg0.win 5).blk t).view.read (Elt Ideal) (Vals3 m c) := by
  have h7 : t.val % 8 = 7 := (flush0_5 t).mp hf
  show (cfg0.win 5).cut (grid0.coords t) ((dats m 0 c).after 5 t) = _
  rw [after0_5]
  obtain ⟨e0, e1, e2⟩ := idx5 t
  have hN : t.val < 64 := lt_of_lt_of_eq t.isLt N_0
  funext j
  show accF m c t.val t.isLt j = Vals3 m c (((cfg0.win 5).blk t).view.emb j)
  obtain ⟨a0, a1, v, rfl⟩ : ∃ (a0 : Fin 1) (a1 : Fin 1) (v : Fin 1024), j = ix3 a0 a1 v := ⟨j 0, j 1, j 2, eq_ix3 j⟩
  obtain rfl : a0 = 0 := Subsingleton.elim _ _
  obtain rfl : a1 = 0 := Subsingleton.elim _ _
  rw [acc_last_eq m hF c t.val t.isLt h7 v]
  show _ = Cert.Spec.values _ _ _ _ _ ((((cfg0.win 5).blk t).view.emb (ix3 0 0 v)) 0) ((((cfg0.win 5).blk t).view.emb (ix3 0 0 v)) 2)
  congr 1
  · apply Fin.ext
    show t.val / 8 % 8 = win0_5.index t (0 : Fin 3) * 1 + 1 * 0
    omega
  · apply Fin.ext
    show v.val = win0_5.index t (2 : Fin 3) * 1024 + 1 * v.val
    omega

/-- An index of the array is in point `t`'s block iff each coordinate is in the block's range on its axis. -/
theorem mem_blk5 (t : Fin cfg0.N) (i : S8x1x1024.Idx) :
    i ∈ ((cfg0.win 5).blk t).view.set ↔ ∀ a : Fin 3, win0_5.index t a * S1x1x1024.size a ≤ (i a).val
      ∧ (i a).val < win0_5.index t a * S1x1x1024.size a + S1x1x1024.size a := by
  show i ∈ ((View.whole main_v4_1).slice (win0_5.rect t)).set ↔ _
  rw [View.set_slice_whole, Rect.mem_set_unit]
  exact Iff.rfl

/-- Every entry of the accumulated array is in the block written back at the last tile of its batch. -/
theorem cover5 (i : S8x1x1024.Idx) :
    ∃ t : Fin cfg0.N, (cfg0.win 5).flush t = true ∧ i ∈ ((cfg0.win 5).blk t).view.set := by
  have h0 : (i 0).val < 8 := (i 0).isLt
  have h1 : (i 1).val < 1 := (i 1).isLt
  have h2 : (i 2).val < 1024 := (i 2).isLt
  have hN : cfg0.N = 64 := N_0
  refine ⟨⟨8 * (i 0).val + 7, by rw [hN]; omega⟩, (flush0_5 _).mpr (by dsimp only; omega), ?_⟩
  rw [mem_blk5]
  obtain ⟨e0, e1, e2⟩ := idx5 ⟨8 * (i 0).val + 7, by rw [hN]; omega⟩
  intro a
  match a with
  | ⟨0, _⟩ =>
    show win0_5.index _ (0 : Fin 3) * 1 ≤ (i 0).val ∧ (i 0).val < win0_5.index _ (0 : Fin 3) * 1 + 1
    rw [e0]; dsimp only; omega
  | ⟨1, _⟩ =>
    show win0_5.index _ (1 : Fin 3) * 1 ≤ (i 1).val ∧ (i 1).val < win0_5.index _ (1 : Fin 3) * 1 + 1
    rw [e1]; omega
  | ⟨2, _⟩ =>
    show win0_5.index _ (2 : Fin 3) * 1024 ≤ (i 2).val ∧ (i 2).val < win0_5.index _ (2 : Fin 3) * 1024 + 1024
    rw [e2]; omega

/-- THE ACCUMULATED ARRAY after the run is the specification's values of the launch arrays (with the unit axis). -/
theorem final5 (hF : Facts m) (c : Dev nD) : (dats m 0 c).arrAt 5 cfg0.N = Vals3 m c :=
  (dats m 0 c).arrAt_eq_of_cover 5 (Vals3 m c) (fun t hf => flushed5_eq m hF c t hf) cover5

end Cert.KernelIdeal.Out

end
-- ==== Proof.KRun.lean ====
/-
  The kernel's run, read: both results at the specification, the arguments unchanged.

  After the region the program drops the unit axis of the accumulated array `[8, 1, 1024]` to give the values
  `[8, 1024]`: entry `(b, v)` of the result is entry `(b, 0, v)` of the accumulated array (the same row-major
  position). The weights array is written by the region alone. The frame run of the program has every window's array
  at what the write-backs leave and every other buffer at what the host operations after the region make of it.
-/
import proofs.«160043_j45414984188085_2_alg».proof.Proof.Out4
import proofs.«160043_j45414984188085_2_alg».proof.Proof.Out5
import Idealize.ShloMosaic.Lib.StableHlo.Run

noncomputable section

namespace Cert.KernelIdeal.Out

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Dropping the unit axis of a `[8, 1, 1024]` array: entry `(b, v)` reads entry `(b, 0, v)`. -/
theorem reshape_drop (X : S8x1x1024.Idx → EReal) (h : S8x1x1024.ShapeCasts S8x1024) (b : Fin 8) (v : Fin 1024) :
    shapeCast S8x1024 X h (ix2 b v) = X (ix3 b 0 v) :=
  shapeCast_apply X h (ix2 b v) (ix3 b 0 v) (by
    rw [Shape.rowMajor_val_three, Shape.rowMajor_val_two]
    show (b.val * 1 + 0) * 1024 + v.val = b.val * 1024 + v.val
    omega)

/-- The values result after the host reshape that follows the region. -/
theorem tail5 (hF : Facts m) (c : Dev nD) :
    Pipeline.afterTail₀ cfgs (dats m) 0 (V0 m) [hostOps1] c main_v5 = Vals m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v4_1)
      = Vals3 m c := (Pipeline.withArrays_arr spec0 launch0.win.arr_inj c _ _ 5).trans (final5 m hF c)
  funext i
  obtain ⟨b, v, rfl⟩ : ∃ (b : Fin 8) (v : Fin 1024), i = ix2 b v := ⟨i 0, i 1, eq_ix2 i⟩
  show shapeCast S8x1024 (Pipeline.withArrays (cfgs 0).spec c (V0 m c) (fun w => (dats m 0 c).arrAt w (cfgs 0).N)
    (Proc.tc.devRef main_v4_1)) _ (ix2 b v) = _
  rw [e, reshape_drop]
  rfl

/-- THE RUN, READ: every weakly fair execution of the kernel's program terminates with the values result and the
    weights result at the specification of the launch arrays, and the arguments unchanged. -/
theorem run (hF : Facts m) : θ_run defs (onTc (τ := τ) (main (F := Ideal))) ⟨m, fun _ => 0, ρ⟩ fun r => ∀ c : Dev nD,
      r.2.mem ((c.tc : Thread nD τ).loc main_v5) = Vals m c
      ∧ r.2.mem ((c.tc : Thread nD τ).loc main_v4_0) = Wts m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail5 m hF c),
      ((h c).1 4).trans (final4 m hF c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Out

end
-- ==== Proof.RefValue.lean ====
/-
  The reference program computes the specification, index by index, over the extended reals.

  Each stage of the reference is read at an index built from its coordinates: the scores are the
  specification's score row of the row of queries and the batch's projected key, the row maximum is the
  specification's row maximum of that score row, the shifted exponentials its row of exponentials, their
  sum the softmax's denominator, and the values the sum over the sequence of weight times query.
-/
import proofs.«160043_j45414984188085_2_alg».proof.Proof.Gen.ReferenceIdeal.Read
import proofs.«160043_j45414984188085_2_alg».proof.Proof.Spec
import Idealize.ShloMosaic.PureOps.Reduce
import Idealize.ShloMosaic.PureOps.Ideal.Laws
import Idealize.ShloMosaic.Lib.ValueIdx

noncomputable section

namespace Cert.RefValue

open Cert.ReferenceIdeal Cert.ReferenceIdeal.Read Idealize.ShloMosaic Idealize.ShloMosaic.ValueIdx
open scoped BigOperators

/-! ## The index maps of the stages, at indices given by their coordinates -/

theorem lidx_v0_at (b : Fin 8) (s : Fin 4096) (h d : Fin 1024) :
    lidx_main_v0 (ix3 b s h) d = ix3 b s d := by
  funext a; match a with | ⟨0, _⟩ => rfl | ⟨1, _⟩ => rfl | ⟨2, _⟩ => rfl

theorem ridx_v0_at (b : Fin 8) (s : Fin 4096) (h d : Fin 1024) :
    ridx_main_v0 (ix3 b s h) d = ix2 d h := by
  funext a; match a with | ⟨0, _⟩ => rfl | ⟨1, _⟩ => rfl

theorem lidx_v1_at (b : Fin 8) (h d : Fin 1024) :
    lidx_main_v1 (ix2 b h) d = ix2 b d := by
  funext a; match a with | ⟨0, _⟩ => rfl | ⟨1, _⟩ => rfl

theorem ridx_v1_at (b : Fin 8) (h d : Fin 1024) :
    ridx_main_v1 (ix2 b h) d = ix2 d h := by
  funext a; match a with | ⟨0, _⟩ => rfl | ⟨1, _⟩ => rfl

theorem idx_v2_v3_at (b : Fin 8) (s : Fin 4096) (h : Fin 1024) :
    idx_main_v2 (idx_main_v3 (ix3 b s h)) = ix2 b h := by
  funext a; match a with | ⟨0, _⟩ => rfl | ⟨1, _⟩ => rfl

theorem lidx_v6_at (b : Fin 8) (s : Fin 4096) (v h : Fin 1024) :
    lidx_main_v6 (ix3 b s v) h = ix3 b s h := by
  funext a; match a with | ⟨0, _⟩ => rfl | ⟨1, _⟩ => rfl | ⟨2, _⟩ => rfl

theorem ridx_v6_at (b : Fin 8) (s : Fin 4096) (v h : Fin 1024) :
    ridx_main_v6 (ix3 b s v) h = ix2 h v := by
  funext a; match a with | ⟨0, _⟩ => rfl | ⟨1, _⟩ => rfl

theorem idx_v10_v11_at (b : Fin 8) (s : Fin 4096) (v : Fin 1024) :
    idx_main_v10 (idx_main_v11 (ix3 b s v)) = ix2 b s := by
  funext a; match a with | ⟨0, _⟩ => rfl | ⟨1, _⟩ => rfl

theorem idx_v14_at (b : Fin 8) (s : Fin 4096) (u : Fin 1024) :
    idx_main_v14 (ix2 b s) u = ix3 b s u := by
  funext a; match a with | ⟨0, _⟩ => rfl | ⟨1, _⟩ => rfl | ⟨2, _⟩ => rfl

theorem idx_v15_v16_at (b : Fin 8) (s : Fin 4096) (v : Fin 1024) :
    idx_main_v15 (idx_main_v16 (ix3 b s v)) = ix2 b s := by
  funext a; match a with | ⟨0, _⟩ => rfl | ⟨1, _⟩ => rfl

theorem idx_v19_at (b : Fin 8) (v : Fin 1024) (s : Fin 4096) :
    idx_main_v19 (ix2 b v) s = ix3 b s v := by
  funext a; match a with | ⟨0, _⟩ => rfl | ⟨1, _⟩ => rfl | ⟨2, _⟩ => rfl

/-! ## The stages -/

section Stages

variable (x0 : (⟨S8x4096x1024, .f32⟩ : BufTy).Contents (Elt Ideal))
  (x1 : (⟨S8x1024, .f32⟩ : BufTy).Contents (Elt Ideal))
  (x2 x3 x4 : (⟨S1024x1024, .f32⟩ : BufTy).Contents (Elt Ideal))

/-- The projected key, broadcast along the sequence, at batch b and column h. -/
theorem v3_at (b : Fin 8) (s : Fin 4096) (h : Fin 1024) :
    val_main_v3 (F := Ideal) x1 x3 (ix3 b s h) = Cert.Spec.keyProj x1 x3 b h := by
  rw [val_main_v3_apply, val_main_v2_apply, idx_v2_v3_at, val_main_v1_apply]
  unfold Cert.Spec.keyProj
  refine Finset.sum_congr rfl fun d _ => ?_
  rw [lidx_v1_at, ridx_v1_at]

/-- The argument of tanh: the projected query plus the projected key. -/
theorem v4_at (b : Fin 8) (s : Fin 4096) (h : Fin 1024) :
    val_main_v4 (F := Ideal) x0 x1 x2 x3 (ix3 b s h)
      = (∑ d : Fin 1024, x0 (ix3 b s d) * x2 (ix2 d h)) + Cert.Spec.keyProj x1 x3 b h := by
  rw [val_main_v4_apply, v3_at, val_main_v0_apply]
  refine congrArg (· + _) (Finset.sum_congr rfl fun d _ => ?_)
  rw [lidx_v0_at, ridx_v0_at]

/-- The scores are the specification's score row. -/
theorem v6_at (b : Fin 8) (s : Fin 4096) (v : Fin 1024) :
    val_main_v6 (F := Ideal) x0 x1 x2 x3 x4 (ix3 b s v)
      = Cert.Spec.scoreRow x2 x4 (fun d => x0 (ix3 b s d)) (Cert.Spec.keyProj x1 x3 b) v := by
  rw [val_main_v6_apply]
  unfold Cert.Spec.scoreRow
  refine Finset.sum_congr rfl fun h _ => ?_
  rw [lidx_v6_at, ridx_v6_at, val_main_v5_apply, v4_at]
  rfl

/-- The reduction's lifted index: the row's index with the column inserted on the last axis. -/
theorem lift_d2_at (h : S8x4096x1024.Reduces [2] S8x4096) (b : Fin 8) (s : Fin 4096) (v : Fin 1024) :
    h.lift (ix2 b s) v = ix3 b s v := by
  funext a; match a with | ⟨0, _⟩ => rfl | ⟨1, _⟩ => rfl | ⟨2, _⟩ => rfl

/-- The maximum over a row of scores, as the program folds it from the word for minus infinity. -/
theorem v7_at (b : Fin 8) (s : Fin 4096) :
    val_main_v7 (F := Ideal) x0 x1 x2 x3 x4 (ix2 b s)
      = (Finset.univ : Finset (Fin 1024)).fold max Cert.Spec.negInf
          (fun v => val_main_v6 (F := Ideal) x0 x1 x2 x3 x4 (ix3 b s v)) := by
  unfold val_main_v7
  generalize val_main_v6 (F := Ideal) x0 x1 x2 x3 x4 = y
  have hr : S8x4096x1024.Reduces [2] S8x4096 := by decide
  refine (Host.reduce_eq_fold_single (FloatOps.maximumf (F := Ideal) (φ := .f32)) y (val_main_cst (F := Ideal))
    _ hr _ (ix2 b s)).trans ?_
  have e : (y ∘ hr.lift (ix2 b s)) = fun v : Fin 1024 => y (ix3 b s v) :=
    funext fun v => congrArg y (lift_d2_at hr b s v)
  rw [e]
  rfl

/-- The row maximum is the specification's. -/
theorem v9_at (b : Fin 8) (s : Fin 4096) :
    val_main_v9 (F := Ideal) x0 x1 x2 x3 x4 (ix2 b s)
      = Cert.Spec.rowMax (fun v => val_main_v6 (F := Ideal) x0 x1 x2 x3 x4 (ix3 b s v)) := by
  rw [val_main_v9_apply, v7_at, val_main_v8_apply]
  rfl

/-- The shifted exponentials are the specification's. -/
theorem v13_at (b : Fin 8) (s : Fin 4096) (v : Fin 1024) :
    val_main_v13 (F := Ideal) x0 x1 x2 x3 x4 (ix3 b s v)
      = Cert.Spec.rowExp (fun u => val_main_v6 (F := Ideal) x0 x1 x2 x3 x4 (ix3 b s u)) v := by
  rw [val_main_v13_apply, val_main_v12_apply, val_main_v11_apply, val_main_v10_apply, idx_v10_v11_at, v9_at]
  rfl

/-- The softmax's denominator: the program's sum starts from the zero word, which is the real 0. -/
theorem v14_at (b : Fin 8) (s : Fin 4096) :
    val_main_v14 (F := Ideal) x0 x1 x2 x3 x4 (ix2 b s)
      = ∑ u : Fin 1024, Cert.Spec.rowExp (fun w => val_main_v6 (F := Ideal) x0 x1 x2 x3 x4 (ix3 b s w)) u := by
  rw [val_main_v14_apply, val_main_cst_1_apply, Ideal.ofBits_def, Ideal.ofBits_zero_f32, zero_add]
  refine Finset.sum_congr rfl fun u _ => ?_
  rw [idx_v14_at, v13_at]

/-- The weights are the softmax of the score row. -/
theorem v17_at (b : Fin 8) (s : Fin 4096) (v : Fin 1024) :
    val_main_v17 (F := Ideal) x0 x1 x2 x3 x4 (ix3 b s v)
      = Cert.Spec.softmaxRow (fun u => val_main_v6 (F := Ideal) x0 x1 x2 x3 x4 (ix3 b s u)) v := by
  rw [val_main_v17_apply, val_main_v16_apply, val_main_v15_apply, idx_v15_v16_at, v14_at, v13_at]
  rfl

/-- The weights at an index given by its coordinates. -/
theorem weights_at (b : Fin 8) (s : Fin 4096) (v : Fin 1024) :
    val_main_v17 (F := Ideal) x0 x1 x2 x3 x4 (ix3 b s v) = Cert.Spec.weights x0 x1 x2 x3 x4 b s v := by
  rw [v17_at]
  unfold Cert.Spec.weights Cert.Spec.weightRow
  exact congrArg (fun f => Cert.Spec.softmaxRow f v) (funext fun u => v6_at x0 x1 x2 x3 x4 b s u)

end Stages

/-- The reference's weights are the specification's. -/
theorem weights_eq (x0 : (⟨S8x4096x1024, .f32⟩ : BufTy).Contents (Elt Ideal)) (x1 : (⟨S8x1024, .f32⟩ : BufTy).Contents (Elt Ideal)) (x2 x3 x4 : (⟨S1024x1024, .f32⟩ : BufTy).Contents (Elt Ideal)) :
    val_main_v17 (F := Ideal) x0 x1 x2 x3 x4 = Cert.Spec.weightsArr x0 x1 x2 x3 x4 := by
  funext i
  obtain ⟨b, s, v, rfl⟩ : ∃ (b : Fin 8) (s : Fin 4096) (v : Fin 1024), i = ix3 b s v := ⟨i 0, i 1, i 2, eq_ix3 i⟩
  exact weights_at x0 x1 x2 x3 x4 b s v

/-- The reference's values are the specification's: the program's sum over the sequence starts from the zero
    word, which is the real 0, and its summand is weight times query. -/
theorem values_eq (x0 : (⟨S8x4096x1024, .f32⟩ : BufTy).Contents (Elt Ideal)) (x1 : (⟨S8x1024, .f32⟩ : BufTy).Contents (Elt Ideal)) (x2 x3 x4 : (⟨S1024x1024, .f32⟩ : BufTy).Contents (Elt Ideal)) :
    val_main_v19 (F := Ideal) x0 x1 x2 x3 x4 = Cert.Spec.valuesArr x0 x1 x2 x3 x4 := by
  funext i
  obtain ⟨b, v, rfl⟩ : ∃ (b : Fin 8) (v : Fin 1024), i = ix2 b v := ⟨i 0, i 1, eq_ix2 i⟩
  rw [val_main_v19_apply, val_main_cst_2_apply, Ideal.ofBits_def, Ideal.ofBits_zero_f32, zero_add]
  show _ = Cert.Spec.values x0 x1 x2 x3 x4 b v
  unfold Cert.Spec.values
  refine Finset.sum_congr rfl fun s _ => ?_
  rw [idx_v19_at, val_main_v18_apply, weights_at]
  rfl

end Cert.RefValue

end
-- ==== Proof.Claims.lean ====
/-
  The claims, from the two programs' runs read at the specification.

  Both idealized programs end with their two results at the specification's functions of their argument arrays —
  the kernel's by its run read through the grid (under the record of what its body computes and what its windows
  hold), the reference's by its straight-line run read one operation at a time — and the two programs start from
  memories that agree on the arguments, so the results are equal, element by element. The three frames are the
  generated frame certificates (the reference's: its run with the results dropped), and the idealization rewrote no
  operation.
-/
import proofs.«160043_j45414984188085_2_alg».proof.Defs
import proofs.«160043_j45414984188085_2_alg».proof.Proof.Gen.Kernel
import proofs.«160043_j45414984188085_2_alg».proof.Proof.Gen.Kernel.Frame
import proofs.«160043_j45414984188085_2_alg».proof.Proof.Gen.KernelIdeal
import proofs.«160043_j45414984188085_2_alg».proof.Proof.Gen.KernelIdeal.Frame
import proofs.«160043_j45414984188085_2_alg».proof.Proof.Gen.ReferenceIdeal
import proofs.«160043_j45414984188085_2_alg».proof.Proof.Gen.ReferenceIdeal.Run
import proofs.«160043_j45414984188085_2_alg».proof.Proof.Gen.ReferenceIdeal.Read
import proofs.«160043_j45414984188085_2_alg».proof.Proof.Gen.Pre_finite_inputs
import proofs.«160043_j45414984188085_2_alg».proof.Proof.KRun
import proofs.«160043_j45414984188085_2_alg».proof.Proof.RefValue

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The two idealized programs, from memories agreeing on the arguments, end with equal results: both are the
    specification's values and weights of the same five arrays. -/
theorem algebraic (hF : ∀ m, Cert.KernelIdeal.Out.Facts m) : Cert.algebraic_KernelIdeal_ReferenceIdeal := by
  intro m ρ m' ρ' _ hagree
  refine ⟨fun c => Cert.KernelIdeal.Out.Vals m c, fun c => Cert.KernelIdeal.Out.Wts m c,
    Cert.KernelIdeal.Out.run m ρ (hF m), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v19_eq (F := Ideal) _ _ _ _ _).trans ?_
    rw [Cert.RefValue.values_eq, (hagree c).1, (hagree c).2.1, (hagree c).2.2.1, (hagree c).2.2.2.1, (hagree c).2.2.2.2]
  · refine (Cert.ReferenceIdeal.Read.val_main_v17_eq (F := Ideal) _ _ _ _ _).trans ?_
    rw [Cert.RefValue.weights_eq, (hagree c).1, (hagree c).2.1, (hagree c).2.2.1, (hagree c).2.2.2.1, (hagree c).2.2.2.2]

end Cert.Proof.Claims

end
-- ==== Proof.Payload.lean ====
/-
  The kernel body's arithmetic, read at an index, over the extended reals.

  One grid point holds a tile of 512 rows of one batch: the query block [1, 512, 1024], the projected key's row
  [1, 1, 1024] and the two weight blocks [1024, 1024]. The body computes, for each row r of the tile, the scores
  ∑ h, tanh ((x_r · W1)[h] + kp[h]) · V[h, c], then the row's softmax (the shift by the row maximum, the
  exponentials, the division by their sum), and the tile's contribution to the batch's value, the column sums over
  the 512 rows of weight × query. Read at coordinates (r, c), each payload is the specification's row function of
  row r of the block: the layout operations (unit axes dropped or added, a row or a column broadcast) only move
  coordinates, the two matrix products are sums over the contracted coordinate, and the three lane reductions are
  a fold of max and two sums over one coordinate.
-/
import proofs.«160043_j45414984188085_2_alg».proof.Proof.Gen.KernelIdeal.Skeleton
import proofs.«160043_j45414984188085_2_alg».proof.Proof.Spec
import Idealize.ShloMosaic.Lib.Pipeline.Value
import Idealize.ShloMosaic.Lib.ValueLayout
import Idealize.ShloMosaic.Lib.ValueIdx
import Idealize.ShloMosaic.PureOps.Ideal.Laws
import Idealize.ShloMosaic.PureOps.Reduce

noncomputable section

namespace Cert.Payload

open Cert.KernelIdeal Cert.KernelIdeal.Gen Idealize.ShloMosaic Idealize.ShloMosaic.ValueIdx
open scoped BigOperators

/-! ## The layout operations of the body, read at coordinates -/

theorem mm_lhs_0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_lhs_1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem mm_rhs_0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem mm_rhs_1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matrix product into a zero block: entry (r, c) is the sum over the contracted coordinate. -/
theorem mm_apply {φ₁ φ₂ : FTy} (x : FVec Ideal S512x1024 φ₁) (w : FVec Ideal S1024x1024 φ₂) (r : Fin 512) (c : Fin 1024) :
    matmul dot_S512x1024_S1024x1024_S512x1024_1_0_0_1_n_n none x w (constant S512x1024 .f32 0x00000000#32) (ix2 r c)
      = ∑ d : Fin 1024, x (ix2 r d) * w (ix2 d c) := by
  refine (Ideal.matmul_constant_zero_apply dot_S512x1024_S1024x1024_S512x1024_1_0_0_1_n_n none x w (ix2 r c)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r c) ((ValueIdx.contrEquiv1 dot_S512x1024_S1024x1024_S512x1024_1_0_0_1_n_n 1024 rfl rfl).symm k) = ix2 r k :=
    funext fun a => Fin.ext (by
      match a with
      | ⟨0, _⟩ => exact mm_lhs_0 _ _
      | ⟨1, _⟩ => exact (mm_lhs_1 _ _).trans hk)
  have er : dot_S512x1024_S1024x1024_S512x1024_1_0_0_1_n_n.rhsIdx (ix2 r c) ((ValueIdx.contrEquiv1 dot_S512x1024_S1024x1024_S512x1024_1_0_0_1_n_n 1024 rfl rfl).symm k) = ix2 k c :=
    funext fun a => Fin.ext (by
      match a with
      | ⟨0, _⟩ => exact (mm_rhs_0 _ _).trans hk
      | ⟨1, _⟩ => exact mm_rhs_1 _ _)
  rw [el, er]

/-- The key block's one row, with its leading unit axis dropped, broadcast over the 512 rows. -/
theorem keyrow_apply (v9 : Vec Ideal S1x1x1024 .f32) (r : Fin 512) (c : Fin 1024) :
    broadcastTo S512x1024 (shapeCast S1x1024 v9 shapeCasts_S1x1x1024_S1x1024) broadcasts_S1x1024_S512x1024 (ix2 r c)
      = v9 (ix3 (0 : Fin 1) (0 : Fin 1) c) :=
  (broadcastTo_1b_ab_apply _ broadcasts_S1x1024_S512x1024 r c).trans
    (shapeCast_1ab_ab_apply v9 shapeCasts_S1x1x1024_S1x1024 (0 : Fin 1) c)

/-- A column of 512 entries given a trailing unit axis and broadcast along the 1024 columns. -/
theorem col_apply (m : FVec Ideal S512 .f32) (r : Fin 512) (c : Fin 1024) :
    broadcastTo S512x1024 (shapeCast S512x1 m shapeCasts_S512_S512x1) broadcasts_S512x1_S512x1024 (ix2 r c) = m (ix1 r) := by
  refine (broadcastTo_apply _ broadcasts_S512x1_S512x1024 (ix2 r c) (ix2 r (0 : Fin 1)) fun ax => ?_).trans ?_
  · match ax with
    | ⟨0, _⟩ => rfl
    | ⟨1, _⟩ => rfl
  · refine shapeCast_apply m shapeCasts_S512_S512x1 _ _ ?_
    rw [Shape.rowMajor_val_two, Shape.rowMajor_val_one]
    show r.val = r.val * 1 + 0
    omega

/-! ## The reductions of the body, read at coordinates -/

/-- The maximum along a row of the block: the fold of max from the start word over the row's 1024 entries. -/
theorem rowmax_apply (S : FVec Ideal S512x1024 .f32) (hφ : FKind.Formats .f32)
    (hacc : (0xFF800000#32 : BitVec FTy.f32.bits) = FKind.maximumf.neutral .f32 hφ) (r : Fin 512) :
    multiReduction .maximumf [1] S512 S 0xFF800000#32 reduces_S512x1024_S512 hφ hacc (ix1 r)
      = (Finset.univ : Finset (Fin 1024)).fold max Cert.Spec.negInf (fun c => S (ix2 r c)) := by
  refine (Ideal.multiReduction_maximumf_single S _ reduces_S512x1024_S512 hφ hacc (ix1 r)).trans ?_
  show (Finset.univ : Finset (Fin 1024)).fold max Cert.Spec.negInf _ = _
  have e : (S ∘ reduces_S512x1024_S512.lift (ix1 r)) = fun c : Fin 1024 => S (ix2 r c) :=
    funext fun k => congrArg S (funext fun a => Fin.ext (by
      match a with
      | ⟨0, _⟩ => rfl
      | ⟨1, _⟩ => rfl))
  exact congrArg (fun f => Finset.fold max Cert.Spec.negInf f (Finset.univ : Finset (Fin 1024))) e

/-- The sum along a row of the block. -/
theorem rowsum_apply (E : FVec Ideal S512x1024 .f32) (hφ : FKind.Formats .f32)
    (hacc : (0x00000000#32 : BitVec FTy.f32.bits) = FKind.add.neutral .f32 hφ) (r : Fin 512) :
    multiReduction .add [1] S512 E 0x00000000#32 reduces_S512x1024_S512 hφ hacc (ix1 r) = ∑ c : Fin 1024, E (ix2 r c) := by
  refine (Ideal.multiReduction_add_single E _ reduces_S512x1024_S512 hφ hacc (ix1 r)).trans ?_
  show ∑ k : Fin 1024, _ = _
  refine Finset.sum_congr rfl fun k _ => congrArg E (funext fun a => Fin.ext ?_)
  match a with
  | ⟨0, _⟩ => rfl
  | ⟨1, _⟩ => rfl

/-- The sum down a column of the block. -/
theorem colsum_apply (P : FVec Ideal S512x1024 .f32) (hφ : FKind.Formats .f32)
    (hacc : (0x00000000#32 : BitVec FTy.f32.bits) = FKind.add.neutral .f32 hφ) (c : Fin 1024) :
    multiReduction .add [0] S1024 P 0x00000000#32 reduces_S512x1024_S1024 hφ hacc (ix1 c) = ∑ r : Fin 512, P (ix2 r c) := by
  refine (Ideal.multiReduction_add_single P _ reduces_S512x1024_S1024 hφ hacc (ix1 c)).trans ?_
  show ∑ k : Fin 512, _ = _
  refine Finset.sum_congr rfl fun k _ => congrArg P (funext fun a => Fin.ext ?_)
  match a with
  | ⟨0, _⟩ => rfl
  | ⟨1, _⟩ => rfl

/-- A row of 1024 entries given two leading unit axes. -/
theorem addUnits_apply (v : FVec Ideal S1024 .f32) (c : Fin 1024) :
    shapeCast S1x1x1024 v shapeCasts_S1024_S1x1x1024 (ix3 (0 : Fin 1) (0 : Fin 1) c) = v (ix1 c) := by
  refine shapeCast_apply v shapeCasts_S1024_S1x1x1024 _ _ ?_
  rw [Shape.rowMajor_val_one, Shape.rowMajor_val_three]
  show c.val = (0 * 1 + 0) * 1024 + c.val
  omega

/-! ## Pointwise operations at an index -/

theorem exp_at {s : Shape} (a : FVec Ideal s .f32) (i : s.Idx) : exp a i = Ideal.exp (a i) := rfl
theorem tanh_at {s : Shape} (a : FVec Ideal s .f32) (i : s.Idx) : tanh a i = Ideal.tanh (a i) := rfl
theorem negInf_at {s : Shape} (i : s.Idx) :
    broadcast s (Scalar.ofBits (F := Ideal) .f32 0xFF800000#32) i = Cert.Spec.negInf := rfl

/-! ## The softmax of a block of scores, row by row -/

/-- Each row's maximum (taken from −∞, then once more against −∞) spread along the row. -/
abbrev maxCol (S : FVec Ideal S512x1024 .f32) (hφ : FKind.Formats .f32)
    (hm : (0xFF800000#32 : BitVec FTy.f32.bits) = FKind.maximumf.neutral .f32 hφ) : FVec Ideal S512x1024 .f32 :=
  broadcastTo S512x1024 (shapeCast S512x1 (maximumf (broadcast S512 (Scalar.ofBits .f32 0xFF800000#32))
    (multiReduction .maximumf [1] S512 S 0xFF800000#32 reduces_S512x1024_S512 hφ hm)) shapeCasts_S512_S512x1) broadcasts_S512x1_S512x1024

/-- The block of shifted exponentials. -/
abbrev expBlock (S : FVec Ideal S512x1024 .f32) (hφ : FKind.Formats .f32)
    (hm : (0xFF800000#32 : BitVec FTy.f32.bits) = FKind.maximumf.neutral .f32 hφ) : FVec Ideal S512x1024 .f32 :=
  exp (subf S (maxCol S hφ hm))

theorem maxCol_apply (S : FVec Ideal S512x1024 .f32) (hφ : FKind.Formats .f32)
    (hm : (0xFF800000#32 : BitVec FTy.f32.bits) = FKind.maximumf.neutral .f32 hφ) (r : Fin 512) (c : Fin 1024) :
    maxCol S hφ hm (ix2 r c) = Cert.Spec.rowMax (fun c' => S (ix2 r c')) :=
  (col_apply _ r c).trans ((maximumf_apply _ _ (ix1 r)).trans
    (congrArg₂ (fun a b : EReal => max a b) (negInf_at (ix1 r)) (rowmax_apply S hφ hm r)))

theorem expBlock_apply (S : FVec Ideal S512x1024 .f32) (hφ : FKind.Formats .f32)
    (hm : (0xFF800000#32 : BitVec FTy.f32.bits) = FKind.maximumf.neutral .f32 hφ) (r : Fin 512) (c : Fin 1024) :
    expBlock S hφ hm (ix2 r c) = Cert.Spec.rowExp (fun c' => S (ix2 r c')) c :=
  (exp_at _ (ix2 r c)).trans (congrArg Ideal.exp ((subf_apply _ _ (ix2 r c)).trans
    (congrArg (fun m : EReal => S (ix2 r c) - m) (maxCol_apply S hφ hm r c))))

/-- The block's softmax at (r, c) is the softmax of row r at c. -/
theorem softmax_apply (S : FVec Ideal S512x1024 .f32) (hφ : FKind.Formats .f32)
    (hm : (0xFF800000#32 : BitVec FTy.f32.bits) = FKind.maximumf.neutral .f32 hφ)
    (ha : (0x00000000#32 : BitVec FTy.f32.bits) = FKind.add.neutral .f32 hφ) (r : Fin 512) (c : Fin 1024) :
    divf (expBlock S hφ hm)
        (broadcastTo S512x1024 (shapeCast S512x1 (multiReduction .add [1] S512 (expBlock S hφ hm) 0x00000000#32 reduces_S512x1024_S512 hφ ha)
          shapeCasts_S512_S512x1) broadcasts_S512x1_S512x1024) (ix2 r c)
      = Cert.Spec.softmaxRow (fun c' => S (ix2 r c')) c :=
  (divf_apply _ _ (ix2 r c)).trans (congrArg₂ Ideal.div (expBlock_apply S hφ hm r c)
    ((col_apply _ r c).trans ((rowsum_apply _ hφ ha r).trans (Finset.sum_congr rfl fun u _ => expBlock_apply S hφ hm r u))))

/-! ## The scores of the tile -/

/-- The first product of the tile: the query block (its unit axis dropped) against the first weight block. -/
abbrev projBlock (v3 : Vec Ideal S1x512x1024 .f32) (v6 : Vec Ideal S1024x1024 .bf16) : FVec Ideal S512x1024 .f32 :=
  matmul dot_S512x1024_S1024x1024_S512x1024_1_0_0_1_n_n none (truncf .bf16 (shapeCast S512x1024 v3 shapeCasts_S1x512x1024_S512x1024 : FVec Ideal S512x1024 .f32) bitsLt_bf16_f32)
    (shapeCast S1024x1024 v6 shapeCasts_S1024x1024_S1024x1024 : FVec Ideal S1024x1024 .bf16) (constant S512x1024 .f32 0x00000000#32)

/-- The block of scores: queries projected, the key row added, tanh, projected again. -/
abbrev scoreBlock (v3 : Vec Ideal S1x512x1024 .f32) (v6 : Vec Ideal S1024x1024 .bf16) (v9 : Vec Ideal S1x1x1024 .f32)
    (v15 : Vec Ideal S1024x1024 .bf16) : FVec Ideal S512x1024 .f32 :=
  matmul dot_S512x1024_S1024x1024_S512x1024_1_0_0_1_n_n none
    (truncf .bf16 (tanh (addf (projBlock v3 v6)
      (broadcastTo S512x1024 (shapeCast S1x1024 v9 shapeCasts_S1x1x1024_S1x1024) broadcasts_S1x1024_S512x1024 : FVec Ideal S512x1024 .f32))) bitsLt_bf16_f32)
    (shapeCast S1024x1024 v15 shapeCasts_S1024x1024_S1024x1024 : FVec Ideal S1024x1024 .bf16) (constant S512x1024 .f32 0x00000000#32)

/-- The first product at (r, h): row r of the query block against column h of the first weight block. -/
theorem projBlock_apply (v3 : Vec Ideal S1x512x1024 .f32) (v6 : Vec Ideal S1024x1024 .bf16) (r : Fin 512) (h : Fin 1024) :
    projBlock v3 v6 (ix2 r h) = ∑ d : Fin 1024, v3 (ix3 (0 : Fin 1) r d) * v6 (ix2 d h) :=
  (mm_apply _ _ r h).trans (Finset.sum_congr rfl fun d _ =>
    congrArg₂ (fun a b : EReal => a * b)
      ((truncf_apply _ bitsLt_bf16_f32 (ix2 r d)).trans (shapeCast_1ab_ab_apply v3 shapeCasts_S1x512x1024_S512x1024 r d))
      (congrFun (shapeCast_self v6 shapeCasts_S1024x1024_S1024x1024) (ix2 d h)))

/-- The scores at (r, c): the specification's score row of the block's row r. -/
theorem scoreBlock_apply (v3 : Vec Ideal S1x512x1024 .f32) (v6 : Vec Ideal S1024x1024 .bf16) (v9 : Vec Ideal S1x1x1024 .f32)
    (v15 : Vec Ideal S1024x1024 .bf16) (r : Fin 512) (c : Fin 1024) :
    scoreBlock v3 v6 v9 v15 (ix2 r c)
      = Cert.Spec.scoreRow v6 v15 (fun d => v3 (ix3 (0 : Fin 1) r d)) (fun h => v9 (ix3 (0 : Fin 1) (0 : Fin 1) h)) c :=
  (mm_apply _ _ r c).trans (Finset.sum_congr rfl fun h _ =>
    congrArg₂ (fun a b : EReal => a * b)
      ((truncf_apply _ bitsLt_bf16_f32 (ix2 r h)).trans ((tanh_at _ (ix2 r h)).trans (congrArg Ideal.tanh
        ((addf_apply _ _ (ix2 r h)).trans
          (congrArg₂ (fun a b : EReal => a + b) (projBlock_apply v3 v6 r h) (keyrow_apply v9 r h))))))
      (congrFun (shapeCast_self v15 shapeCasts_S1024x1024_S1024x1024) (ix2 h c)))

/-! ## The payloads at an index -/

/-- The weights payload is the softmax of the score block (by unfolding). -/
theorem pay4_eq (v3 : Vec Ideal S1x512x1024 .f32) (v6 : Vec Ideal S1024x1024 .bf16) (v9 : Vec Ideal S1x1x1024 .f32)
    (v15 : Vec Ideal S1024x1024 .bf16) :
    k0_pay4 (F := Ideal) v3 v6 v9 v15
      = divf (expBlock (scoreBlock v3 v6 v9 v15) (.inl rfl) rfl)
          (broadcastTo S512x1024 (shapeCast S512x1 (multiReduction .add [1] S512 (expBlock (scoreBlock v3 v6 v9 v15) (.inl rfl) rfl)
            0x00000000#32 reduces_S512x1024_S512 (.inl rfl) rfl) shapeCasts_S512_S512x1) broadcasts_S512x1_S512x1024) := rfl

/-- The tile's weights at row r, column c: the specification's row function of the block's row r, the key block's
    row and the two weight blocks. -/
theorem pay4_apply (v3 : Vec Ideal S1x512x1024 .f32) (v6 : Vec Ideal S1024x1024 .bf16) (v9 : Vec Ideal S1x1x1024 .f32)
    (v15 : Vec Ideal S1024x1024 .bf16) (r : Fin 512) (c : Fin 1024) :
    k0_pay4 (F := Ideal) v3 v6 v9 v15 (ix2 r c)
      = Cert.Spec.weightRow v6 v15 (fun d => v3 (ix3 (0 : Fin 1) r d)) (fun h => v9 (ix3 (0 : Fin 1) (0 : Fin 1) h)) c :=
  (congrFun (pay4_eq v3 v6 v9 v15) (ix2 r c)).trans ((softmax_apply (scoreBlock v3 v6 v9 v15) (.inl rfl) rfl rfl r c).trans
    (congrArg (fun f => Cert.Spec.softmaxRow f c) (funext fun c' => scoreBlock_apply v3 v6 v9 v15 r c')))

theorem pay5_apply (v3 : Vec Ideal S1x512x1024 .f32) (v6 : Vec Ideal S1024x1024 .bf16) (v9 : Vec Ideal S1x1x1024 .f32)
    (v15 : Vec Ideal S1024x1024 .bf16) (r : Fin 512) (c : Fin 1024) :
    k0_pay5 (F := Ideal) v3 v6 v9 v15 (ix3 (0 : Fin 1) r c)
      = Cert.Spec.weightRow v6 v15 (fun d => v3 (ix3 (0 : Fin 1) r d)) (fun h => v9 (ix3 (0 : Fin 1) (0 : Fin 1) h)) c :=
  (shapeCast_ab_1ab_apply (k0_pay4 (F := Ideal) v3 v6 v9 v15) shapeCasts_S512x1024_S1x512x1024 (0 : Fin 1) r c).trans
    (pay4_apply v3 v6 v9 v15 r c)

/-- The tile's contribution at column c: the sum over its 512 rows of weight × query (the lane reduction starts from
    its neutral word: no zero is added). -/
theorem pay6_apply (v3 : Vec Ideal S1x512x1024 .f32) (v6 : Vec Ideal S1024x1024 .bf16) (v9 : Vec Ideal S1x1x1024 .f32)
    (v15 : Vec Ideal S1024x1024 .bf16) (c : Fin 1024) :
    k0_pay6 (F := Ideal) v3 v6 v9 v15 (ix3 (0 : Fin 1) (0 : Fin 1) c)
      = ∑ r : Fin 512, Cert.Spec.weightRow v6 v15 (fun d => v3 (ix3 (0 : Fin 1) r d)) (fun h => v9 (ix3 (0 : Fin 1) (0 : Fin 1) h)) c
          * v3 (ix3 (0 : Fin 1) r c) :=
  (addUnits_apply _ c).trans ((colsum_apply _ (.inl rfl) rfl c).trans (Finset.sum_congr rfl fun r _ =>
    (mulf_apply _ _ (ix2 r c)).trans (congrArg₂ (fun a b : EReal => a * b) (pay4_apply v3 v6 v9 v15 r c)
      (shapeCast_1ab_ab_apply v3 shapeCasts_S1x512x1024_S512x1024 r c))))

theorem pay1_apply (v34 : FVec Ideal S1x1x1024 .f32) (v35 : Vec Ideal S1x1x1024 .f32) (i : S1x1x1024.Idx) :
    k0_pay1 (F := Ideal) v34 v35 i = v35 i + v34 i :=
  (addf_apply _ _ i).trans (congrArg (fun a : EReal => a + v34 i) (congrFun (shapeCast_self v35 shapeCasts_S1x1x1024_S1x1x1024) i))

theorem pay2_apply (i : S1x1x1024.Idx) : k0_pay2 (F := Ideal) i = Cert.Spec.zero := rfl

end Cert.Payload

end
-- ==== Proof.Blocks.lean ====
/-
  What each input window's block holds at a grid point, over the extended reals.

  The grid is 8 batches by 8 tiles of 512 rows; point `t` works on batch `t / 8` and tile `t % 8`. The query block is
  the 512 rows of the tile in the point's batch; the key block is the batch's row of `k · W2` (computed before the
  grid, then given a unit axis); the two weight blocks are the whole matrices `W1` and `V` (their change of float
  format is the identity on the extended reals).
-/
import proofs.«160043_j45414984188085_2_alg».proof.Proof.Gen.KernelIdeal.Frame
import proofs.«160043_j45414984188085_2_alg».proof.Proof.Spec
import Idealize.ShloMosaic.Lib.Pipeline.Value
import Idealize.ShloMosaic.Lib.StableHlo.Run
import Idealize.ShloMosaic.Lib.Tactic
noncomputable section
namespace Cert.Blocks
open Cert.KernelIdeal Cert.KernelIdeal.Gen Idealize.ShloMosaic Idealize.ShloMosaic.TcCoe Idealize.ShloMosaic.ValueIdx Idealize.SL.Sem
variable (m : (ℓ : Loc nD τ sig) → Buf (Elt Ideal) ℓ)

open scoped BigOperators

/-! ## The index maps, decided once over the grid

A grid point `t` has coordinates `(t / 8, t % 8)`: the batch and the tile. The query window's block index is
`(batch, tile, 0)`, the key window's `(batch, 0, 0)`, the two weight windows' `(0, 0)`. -/

theorem idx_q : ∀ t : Fin cfg0.N, win0_0.index t 0 = t.val / 8 ∧ win0_0.index t 1 = t.val % 8 ∧ win0_0.index t 2 = 0 :=
  (by decide +kernel : ∀ t : Fin grid0.N, _)

theorem idx_k : ∀ t : Fin cfg0.N, win0_1.index t 0 = t.val / 8 ∧ win0_1.index t 1 = 0 ∧ win0_1.index t 2 = 0 :=
  (by decide +kernel : ∀ t : Fin grid0.N, _)

theorem idx_w1 : ∀ t : Fin cfg0.N, win0_2.index t 0 = 0 ∧ win0_2.index t 1 = 0 :=
  (by decide +kernel : ∀ t : Fin grid0.N, _)

theorem idx_v : ∀ t : Fin cfg0.N, win0_3.index t 0 = 0 ∧ win0_3.index t 1 = 0 :=
  (by decide +kernel : ∀ t : Fin grid0.N, _)

/-! ## What the host computes before the region

The key window's array is `k · W2` with a unit axis inserted; the two weight windows' arrays are `W1` and `V` after a
change of float format, which is the identity on the extended reals. -/

theorem V_key (c : Dev nD) :
    @Eq (FVec Ideal S8x1x1024 .f32) (V m c main_v1)
      (shapeCast S8x1x1024 (Host.dotGeneral (F := Ideal) (φ₁ := .f32) (φ₂ := .f32) dot_S8x1024_S1024x1024_S8x1024_1_0_0_1_n_n none
        (m ((c : Thread nD τ).loc main_arg1)) (m ((c : Thread nD τ).loc main_arg3))) shapeCasts_S8x1024_S8x1x1024) := by
  show StableHlo.after hostOps0 (fun b => m (c, b)) (Proc.devRef .tc main_v1) = _
  after_results
  rfl

theorem V_w1 (c : Dev nD) :
    @Eq (FVec Ideal S1024x1024 .bf16) (V m c main_v2)
      (truncf (F := Ideal) .bf16 (m ((c : Thread nD τ).loc main_arg2) : FVec Ideal S1024x1024 .f32) bitsLt_bf16_f32) := by
  show StableHlo.after hostOps0 (fun b => m (c, b)) (Proc.devRef .tc main_v2) = _
  after_results

theorem V_v (c : Dev nD) :
    @Eq (FVec Ideal S1024x1024 .bf16) (V m c main_v3)
      (truncf (F := Ideal) .bf16 (m ((c : Thread nD τ).loc main_arg4) : FVec Ideal S1024x1024 .f32) bitsLt_bf16_f32) := by
  show StableHlo.after hostOps0 (fun b => m (c, b)) (Proc.devRef .tc main_v3) = _
  after_results

/-! ## The host's product at an entry -/

theorem lhs0 (i : S8x1024.Idx) (q : dot_S8x1024_S1024x1024_S8x1024_1_0_0_1_n_n.contr.Idx) :
    (dot_S8x1024_S1024x1024_S8x1024_1_0_0_1_n_n.lhsIdx i q 0).val = (i 0).val := by
  unfold DotDims.lhsIdx
  rw [dif_neg (show ¬(0 : Fin S8x1024.rank) ∈ dot_S8x1024_S1024x1024_S8x1024_1_0_0_1_n_n.lhsBatch by decide), dif_pos (show (0 : Fin S8x1024.rank) ∈ dot_S8x1024_S1024x1024_S8x1024_1_0_0_1_n_n.lhsNonContracting by decide)]
  rfl
theorem lhs1 (i : S8x1024.Idx) (q : dot_S8x1024_S1024x1024_S8x1024_1_0_0_1_n_n.contr.Idx) :
    (dot_S8x1024_S1024x1024_S8x1024_1_0_0_1_n_n.lhsIdx i q 1).val = (q ⟨0, by decide⟩).val :=
  dot_S8x1024_S1024x1024_S8x1024_1_0_0_1_n_n.lhsIdx_val_of_single rfl i q
theorem rhs0 (i : S8x1024.Idx) (q : dot_S8x1024_S1024x1024_S8x1024_1_0_0_1_n_n.contr.Idx) :
    (dot_S8x1024_S1024x1024_S8x1024_1_0_0_1_n_n.rhsIdx i q 0).val = (q ⟨0, by decide⟩).val :=
  dot_S8x1024_S1024x1024_S8x1024_1_0_0_1_n_n.rhsIdx_val_of_single rfl i q
theorem rhs1 (i : S8x1024.Idx) (q : dot_S8x1024_S1024x1024_S8x1024_1_0_0_1_n_n.contr.Idx) :
    (dot_S8x1024_S1024x1024_S8x1024_1_0_0_1_n_n.rhsIdx i q 1).val = (i 1).val := by
  unfold DotDims.rhsIdx
  rw [dif_neg (show ¬(1 : Fin S1024x1024.rank) ∈ dot_S8x1024_S1024x1024_S8x1024_1_0_0_1_n_n.rhsBatch by decide), dif_pos (show (1 : Fin S1024x1024.rank) ∈ dot_S8x1024_S1024x1024_S8x1024_1_0_0_1_n_n.rhsNonContracting by decide)]
  rfl

/-- The product of the keys by the second weight matrix, read at entry `(b, h)`: the sum over the contracted axis
    `∑ d, k[b, d] · W2[d, h]`. -/
theorem dot_apply (k : FVec Ideal S8x1024 .f32) (W2 : FVec Ideal S1024x1024 .f32) (b : Fin 8) (h : Fin 1024) :
    (Host.dotGeneral (F := Ideal) dot_S8x1024_S1024x1024_S8x1024_1_0_0_1_n_n none k W2 : FVec Ideal S8x1024 .f32) (ix2 b h)
      = ∑ d : Fin 1024, k (ix2 b d) * W2 (ix2 d h) := by
  simp only [Host.dotGeneral]
  rw [Ideal.dotGeneral_apply, ← Equiv.sum_comp (ValueIdx.contrEquiv1 dot_S8x1024_S1024x1024_S8x1024_1_0_0_1_n_n 1024 rfl rfl).symm]
  refine Finset.sum_congr rfl fun d _ => ?_
  have hd := ValueIdx.contrEquiv1_symm_val dot_S8x1024_S1024x1024_S8x1024_1_0_0_1_n_n 1024 rfl rfl d
  have el : dot_S8x1024_S1024x1024_S8x1024_1_0_0_1_n_n.lhsIdx (ix2 b h) ((ValueIdx.contrEquiv1 dot_S8x1024_S1024x1024_S8x1024_1_0_0_1_n_n 1024 rfl rfl).symm d) = ix2 b d := funext fun a => Fin.ext (by
    match a with
    | ⟨0, _⟩ => exact lhs0 _ _
    | ⟨1, _⟩ => exact (lhs1 _ _).trans hd)
  have er : dot_S8x1024_S1024x1024_S8x1024_1_0_0_1_n_n.rhsIdx (ix2 b h) ((ValueIdx.contrEquiv1 dot_S8x1024_S1024x1024_S8x1024_1_0_0_1_n_n 1024 rfl rfl).symm d) = ix2 d h := funext fun a => Fin.ext (by
    match a with
    | ⟨0, _⟩ => exact (rhs0 _ _).trans hd
    | ⟨1, _⟩ => exact rhs1 _ _)
  rw [el, er]

/-- Inserting a unit axis in the middle re-indexes nothing: entry `(b, 0, h)` of the reshaped array is entry `(b, h)`
    (both sit at row-major position `1024 b + h`). -/
theorem reshape_apply (x : FVec Ideal S8x1024 .f32) (j : S8x1x1024.Idx) (b : Fin 8) (h : Fin 1024)
    (h0 : (j 0).val = b.val) (h1 : (j 1).val = 0) (h2 : (j 2).val = h.val) :
    shapeCast S8x1x1024 x shapeCasts_S8x1024_S8x1x1024 j = x (ix2 b h) := by
  refine shapeCast_apply x _ j (ix2 b h) ?_
  rw [Shape.rowMajor_val_two, Shape.rowMajor_val_three]
  show b.val * 1024 + h.val = ((j 0).val * 1 + (j 1).val) * 1024 + (j 2).val
  rw [h0, h1, h2]
  omega

/-! ## The blocks -/

/-- An entry of the query block at point t is the query array's entry of the point's batch and of the tile's row. -/
theorem qblk_apply (c : Dev nD) (t : Fin cfg0.N) (r : Fin 512) (d : Fin 1024) :
    (iblk m c 0 t : Vec Ideal S1x512x1024 .f32) (ix3 0 r d)
      = (m ((c : Thread nD τ).loc main_arg0) : Cert.Spec.Q3) (ix3 (Cert.Spec.batchOf t.val) (Cert.Spec.rowOf t.val r) d) := by
  have hN : t.val < 64 := lt_of_lt_of_eq t.isLt N_0
  obtain ⟨h0, h1, h2⟩ := idx_q t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 8 % 8; rw [h0]; omega
  | ⟨1, _⟩ => show win0_0.index t 1 * 512 + 1 * r.val = 512 * (t.val % 8) + r.val; rw [h1]; omega
  | ⟨2, _⟩ => show win0_0.index t 2 * 1024 + 1 * d.val = d.val; rw [h2]; omega

/-- The key block at point t is the projected key row of the point's batch (host: k · W2, then a unit axis). -/
theorem kblk_apply (c : Dev nD) (t : Fin cfg0.N) (h : Fin 1024) :
    (iblk m c 1 t : Vec Ideal S1x1x1024 .f32) (ix3 0 0 h)
      = Cert.Spec.keyProj (m ((c : Thread nD τ).loc main_arg1)) (m ((c : Thread nD τ).loc main_arg3)) (Cert.Spec.batchOf t.val) h := by
  have hN : t.val < 64 := lt_of_lt_of_eq t.isLt N_0
  obtain ⟨h0, h1, h2⟩ := idx_k t
  unfold iblk
  rw [View.read_apply]
  show V m c main_v1 _ = _
  rw [V_key]
  refine (reshape_apply _ _ (Cert.Spec.batchOf t.val) h ?_ ?_ ?_).trans (dot_apply _ _ _ _)
  · show win0_1.index t 0 * 1 + 1 * 0 = t.val / 8 % 8
    rw [h0]; omega
  · show win0_1.index t 1 * 1 + 1 * 0 = 0
    rw [h1]
  · show win0_1.index t 2 * 1024 + 1 * h.val = h.val
    rw [h2]; omega

/-- The two weight blocks are the whole matrices (a change of float format is the identity on the extended reals). -/
theorem w1blk_eq (c : Dev nD) (t : Fin cfg0.N) : (iblk m c 2 t : Cert.Spec.M2) = m ((c : Thread nD τ).loc main_arg2) := by
  obtain ⟨h0, h1⟩ := idx_w1 t
  funext i
  unfold iblk
  rw [View.read_apply]
  show V m c main_v2 _ = _
  rw [V_w1]
  show m (c.tc.loc main_arg2) _ = m (c.tc.loc main_arg2) i
  congr 1
  funext a
  apply Fin.ext
  match a with
  | ⟨0, _⟩ => show win0_2.index t 0 * 1024 + 1 * (i 0).val = (i 0).val; rw [h0]; omega
  | ⟨1, _⟩ => show win0_2.index t 1 * 1024 + 1 * (i 1).val = (i 1).val; rw [h1]; omega

theorem vblk_eq (c : Dev nD) (t : Fin cfg0.N) : (iblk m c 3 t : Cert.Spec.M2) = m ((c : Thread nD τ).loc main_arg4) := by
  obtain ⟨h0, h1⟩ := idx_v t
  funext i
  unfold iblk
  rw [View.read_apply]
  show V m c main_v3 _ = _
  rw [V_v]
  show m (c.tc.loc main_arg4) _ = m (c.tc.loc main_arg4) i
  congr 1
  funext a
  apply Fin.ext
  match a with
  | ⟨0, _⟩ => show win0_3.index t 0 * 1024 + 1 * (i 0).val = (i 0).val; rw [h0]; omega
  | ⟨1, _⟩ => show win0_3.index t 1 * 1024 + 1 * (i 1).val = (i 1).val; rw [h1]; omega

end Cert.Blocks
end
-- ==== Proof.lean ====
/-
  Additive attention, tiled over the sequence axis, against its plain reference: the proof of `Cert.Claim`.

  Both programs compute, for queries `q` [8, 4096, 1024], keys `k` [8, 1024] and matrices `W1`, `W2`, `V`
  [1024, 1024], the weights `softmax_v (∑_h tanh ((q · W1)[b, s, h] + (k · W2)[b, h]) · V[h, v])` and the values
  `∑_s weights[b, s, v] · q[b, s, v]`. The kernel forms `k · W2` on the host, narrows `W1` and `V` to a sixteen-bit
  format (the identity on the extended reals), and runs a grid of 8 batches by 8 tiles of 512 sequence rows: each
  point computes its tile's weights and adds the tile's column sums of weight times query into an accumulator block
  that is zeroed at a batch's first tile and written back at its last; a reshape after the region drops the
  accumulator's unit axis. Read on the extended reals the two programs are one function
  (`Proof/Spec.lean`): the softmax is spelt alike on both sides (maximum from −∞, shifted exponentials, a true
  division), and the kernel's tile-by-tile accumulation is the reference's sum over all rows because addition is
  commutative and associative there and the zero word is 0 — no finiteness of the inputs is used.

  `Proof/Payload.lean` reads the kernel body's arithmetic at an index, `Proof/Blocks.lean` the windows' blocks at a
  grid point (with the host operations before the region), `Proof/Pieces.lean` what each control case of the body
  leaves in its output blocks, `Proof/Out4.lean` and `Proof/Out5.lean` the two result arrays after the write-backs
  (the second through the accumulation over a batch's eight points), `Proof/KRun.lean` the run with the reshape after
  the region, `Proof/RefValue.lean` the reference one operation at a time, `Proof/Claims.lean` the five claims.
-/
import proofs.«160043_j45414984188085_2_alg».proof.Defs
import proofs.«160043_j45414984188085_2_alg».proof.Proof.Claims
import proofs.«160043_j45414984188085_2_alg».proof.Proof.Payload
import proofs.«160043_j45414984188085_2_alg».proof.Proof.Blocks
import Idealize.ShloMosaic.Adequacy
import Idealize.ShloMosaic.Init

noncomputable section

namespace Cert.Proof

open Idealize.ShloMosaic Idealize.SL.Sem

/-- What the kernel's body computes at an index and what its input windows hold at a grid point, for any launch
    memory: the record the reading of the kernel's run is stated under. -/
theorem kernel_facts (m : (ℓ : Loc Cert.KernelIdeal.nD Cert.KernelIdeal.τ Cert.KernelIdeal.sig) → Buf (Elt Ideal) ℓ) :
    Cert.KernelIdeal.Out.Facts m :=
  ⟨Cert.Payload.pay5_apply, Cert.Payload.pay6_apply, Cert.Payload.pay1_apply, Cert.Payload.pay2_apply,
    Cert.Blocks.qblk_apply m, Cert.Blocks.kblk_apply m, Cert.Blocks.w1blk_eq m, Cert.Blocks.vblk_eq m⟩

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic kernel_facts⟩

end Cert.Proof

end
